-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x1024x1024 : Shape := ⟨4, ![16, 3, 1024, 1024]⟩
abbrev S_ : Shape := ⟨0, ![]⟩

class Facts : Prop where
  bcast_S_S16x3x1024x1024 : S_.BroadcastsInDim S16x3x1024x1024 (![] : Fin 0 → Fin S16x3x1024x1024.rank)
  reducesTo_S16x3x1024x1024_S_d0_1_2_3 : S16x3x1024x1024.ReducesTo [0, 1, 2, 3] S_
  h_S_ : 0 < S_.numel

variable [Facts]

def fn {F : FTy → Type} [FloatOps F] (main_arg0 : FVec F S16x3x1024x1024 .f32) : IVec S_ 1 :=
  let main_v0 : FVec F S16x3x1024x1024 .f32 := Host.absf main_arg0
  let main_cst : FVec F S_ .f32 := constant S_ .f32 0x7F800000#32
  let main_v1 : FVec F S16x3x1024x1024 .f32 := broadcastInDim S16x3x1024x1024 ![] bcast_S_S16x3x1024x1024 main_cst
  let main_v2 : IVec S16x3x1024x1024 1 := cmpf .olt main_v0 main_v1
  let main_c : IVec S_ 1 := constantI S_ 1 1#1
  let main_v3 : IVec S_ 1 := (fun x v => Host.reduce IntOp.andi x v reducesTo_S16x3x1024x1024_S_d0_1_2_3 h_S_) main_v2 main_c
  main_v3
-- ==== Kernel.lean ====
abbrev S16x3x1024x1024 : Shape := ⟨4, ![16, 3, 1024, 1024]⟩
abbrev S48x1024x1024 : Shape := ⟨3, ![48, 1024, 1024]⟩
abbrev S2x1024x1024 : Shape := ⟨3, ![2, 1024, 1024]⟩
abbrev S2x1x1 : Shape := ⟨3, ![2, 1, 1]⟩

abbrev nBuf : Space → Nat
  | .hbm => 4
  | .vmem => 4
  | .smem => 0
  | _ => 0

abbrev bufTy : (tb : Table) → Fin (tcTables nBuf tb) → BufTy
  | .hbm, ⟨0, _⟩ => ⟨S16x3x1024x1024, .f32⟩
  | .hbm, ⟨1, _⟩ => ⟨S48x1024x1024, .f32⟩
  | .hbm, ⟨2, _⟩ => ⟨S48x1024x1024, .f32⟩
  | .hbm, ⟨3, _⟩ => ⟨S16x3x1024x1024, .f32⟩
  | .local _ .vmem, ⟨0, _⟩ => ⟨S2x1024x1024, .f32⟩
  | .local _ .vmem, ⟨1, _⟩ => ⟨S2x1024x1024, .f32⟩
  | .local _ .vmem, ⟨2, _⟩ => ⟨S2x1024x1024, .f32⟩
  | .local _ .vmem, ⟨3, _⟩ => ⟨S2x1024x1024, .f32⟩
  | _, _ => ⟨S16x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![24], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S16x3x1024x1024_S48x1024x1024 : S16x3x1024x1024.ShapeCasts S48x1024x1024
  inb_S2x1024x1024_S2x1024x1024_0_0_0 : ∀ a, (![0, 0, 0] : Fin 3 → Nat) a + S2x1024x1024.size a ≤ S2x1024x1024.size a
  h_S2x1024x1024 : 0 < S2x1024x1024.numel
  shapeCasts_S2x1024x1024_S2x1024x1024 : S2x1024x1024.ShapeCasts S2x1024x1024
  slices_S2x1024x1024_o0_0_0_S2x1x1 : S2x1024x1024.Slices ![0, 0, 0] S2x1x1
  broadcasts_S2x1x1_S2x1024x1024 : S2x1x1.Broadcasts S2x1024x1024
  natLt_1_32 : 1 < 32
  shapeCasts_S48x1024x1024_S16x3x1024x1024 : S48x1024x1024.ShapeCasts S16x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x1024.size a ≤ S48x1024x1024.size a
  hwx0_0 : ∀ i : grid0.Coords, EltTy.bits .f32 = 32 ∨ (Rect.block (s := S48x1024x1024) S2x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S48x1024x1024.size a
  hwx0_1 : ∀ i : grid0.Coords, EltTy.bits .f32 = 32 ∨ (Rect.block (s := S48x1024x1024) S2x1024x1024.size (cc0_transform_1 i) (hinb0_1 i)).WholeWords (EltTy.packing .f32)

variable [Facts₀]

abbrev win0_0 : Pipeline.Window sig grid0 :=
  Pipeline.Window.ofSpec (Memref.whole main_v0) S2x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x3x1024x1024 : Shape := ⟨4, ![16, 3, 1024, 1024]⟩
abbrev S16x3x1x1 : Shape := ⟨4, ![16, 3, 1, 1]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16x3x1024x1024, .f32⟩
  | .hbm, ⟨1, _⟩ => ⟨S16x3x1x1, .f32⟩
  | .hbm, ⟨2, _⟩ => ⟨S16x3x1024x1024, .f32⟩
  | .hbm, ⟨3, _⟩ => ⟨S16x3x1024x1024, .i1⟩
  | .hbm, ⟨4, _⟩ => ⟨S_, .f32⟩
  | .hbm, ⟨5, _⟩ => ⟨S_, .f32⟩
  | .hbm, ⟨6, _⟩ => ⟨S16x3x1024x1024, .f32⟩
  | .hbm, ⟨7, _⟩ => ⟨S16x3x1024x1024, .f32⟩
  | .hbm, ⟨8, _⟩ => ⟨S16x3x1024x1024, .f32⟩
  | _, _ => ⟨S16x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  slices_S16x3x1024x1024_S16x3x1x1_0_0_0_0 : S16x3x1024x1024.Slices ![0, 0, 0, 0] S16x3x1x1
  bcast_S16x3x1x1_S16x3x1024x1024_0_1_2_3 : S16x3x1x1.BroadcastsInDim S16x3x1024x1024 (![0, 1, 2, 3] : Fin 4 → Fin S16x3x1024x1024.rank)
  bcast_S_S16x3x1024x1024 : S_.BroadcastsInDim S16x3x1024x1024 (![] : Fin 0 → Fin S16x3x1024x1024.rank)

variable [Facts₀]

class Facts : Prop extends Facts₀ where

variable [Facts]
-- ==== Proof.Indicator.lean ====
/-
  The indicator of "differs" on the extended reals: `differs u v` is 1 when `u ≠ v` and 0 when `u = v`.

  Two spellings of it meet in this certificate. One compares (ordered "not equal"), widens the one-bit answer to a
  32-bit word and converts that word, read as a signed integer, to a float: the bit 1 becomes the integer 1, the bit 0
  the integer 0. The other compares (unordered "not equal") and selects between the float words of 1.0 and 0.0. On the
  extended reals there is no unordered pair, so both comparisons decide `u ≠ v`, and both spellings are `differs`.
-/
import Idealize.ShloMosaic.PureOps.Ideal
import Idealize.ShloMosaic.Lib.ValueIdx

noncomputable section

namespace Cert.Indicator

open Idealize.ShloMosaic

/-- 1 where the two extended reals differ, 0 where they are equal. -/
def differs (u v : EReal) : EReal := if u ≠ v then 1 else 0

/-- The f32 word of 1.0 denotes the extended real 1. -/
theorem word_one : Ideal.ofBits .f32 0x3F800000#32 = 1 := by
  simp [Ideal.ofBits, Ideal.ieee, -EReal.coe_mul]; norm_num

/-- The f32 word of +0.0 denotes the extended real 0. -/
theorem word_zero : Ideal.ofBits .f32 0x00000000#32 = 0 := by
  simp [Ideal.ofBits, Ideal.ieee]

/-- The ordered "not equal" of two extended reals is the bit of `u ≠ v`. -/
theorem cmp_one (u v : EReal) : Ideal.cmp .one u v = if u ≠ v then 1#1 else 0#1 := by
  unfold Ideal.cmp
  by_cases h : u = v
  · simp [h]
  · simp [h]

/-- The unordered "not equal" of two extended reals is the same bit. -/
theorem cmp_une (u v : EReal) : Ideal.cmp .une u v = if u ≠ v then 1#1 else 0#1 := by
  unfold Ideal.cmp
  by_cases h : u = v
  · simp [h]
  · simp [h]

/-- Compare, widen the bit to 32 bits, convert as a signed integer: the indicator. -/
theorem widen_convert (u v : EReal) :
    FloatOps.sitofp (F := Ideal) .f32 ((FloatOps.cmpf (F := Ideal) (φ := .f32) .one u v).setWidth 32) = differs u v := by
  show (((Ideal.cmp .one u v).setWidth 32).toInt : ℝ) = differs u v
  rw [cmp_one]
  unfold differs
  by_cases h : u = v
  · rw [if_neg (not_not.mpr h), if_neg (not_not.mpr h)]
    norm_num
  · rw [if_pos h, if_pos h]
    norm_num

/-- Compare, select between the words of 1.0 and 0.0: the indicator. -/
theorem select_words (u v : EReal) :
    Scalar.select (FloatOps.cmpf (F := Ideal) (φ := .f32) .une u v) (FloatOps.ofBits (F := Ideal) .f32 0x3F800000#32)
      (FloatOps.ofBits (F := Ideal) .f32 0x00000000#32) = differs u v := by
  show Scalar.select (Ideal.cmp .une u v) (Ideal.ofBits .f32 0x3F800000#32) (Ideal.ofBits .f32 0x00000000#32) = differs u v
  rw [cmp_une, word_one, word_zero]
  unfold differs
  by_cases h : u = v
  · rw [if_neg (not_not.mpr h), if_neg (not_not.mpr h)]
    exact ValueIdx.select_zero _ _
  · rw [if_pos h, if_pos h]
    exact ValueIdx.select_one _ _

end Cert.Indicator

end
-- ==== Proof.BlockCorner.lean ====
/-
  What the kernel body computes from one block. A block is two planes of 1024 × 1024 numbers. The body takes the
  block's two corner entries (plane r at (0, 0)) as a [2, 1, 1] slice, spreads each over its plane, compares every
  entry with its plane's corner (ordered "not equal"), widens the bit and converts it to a float. Read at the entry
  (r, p, q), on the extended reals, that is the indicator of "entry (r, p, q) differs from entry (r, 0, 0)".
-/
import proofs.«152996_j57947698757992_2_alg».proof.Proof.Gen.KernelIdeal.Skeleton
import proofs.«152996_j57947698757992_2_alg».proof.Proof.Indicator
import Idealize.ShloMosaic.Lib.Pipeline.Value
import Idealize.ShloMosaic.Lib.ValueIdx

noncomputable section

namespace Cert.KernelIdeal.BlockCorner

open Cert.KernelIdeal Cert.KernelIdeal.Gen Idealize.ShloMosaic Idealize.ShloMosaic.ValueIdx
open Cert.Indicator

/-- The block's corners spread over their planes, read at (r, p, q): the block at (r, 0, 0). -/
theorem corner_spread (v : FVec Ideal S2x1024x1024 .f32) (r : Fin 2) (p q : Fin 1024) :
    broadcastTo S2x1024x1024 (extractStridedSlice S2x1x1 ![0, 0, 0] v slices_S2x1024x1024_o0_0_0_S2x1x1)
      broadcasts_S2x1x1_S2x1024x1024 (ix3 r p q) = v (ix3 r 0 0) := by
  refine (broadcastTo_apply _ broadcasts_S2x1x1_S2x1024x1024 (ix3 r p q) (ix3 r 0 0) (fun a => ?_)).trans ?_
  · match a with
    | ⟨0, _⟩ => show r.val = if (2 : Nat) = 1 then 0 else r.val; rw [if_neg (by decide)]
    | ⟨1, _⟩ => show 0 = if (1 : Nat) = 1 then 0 else p.val; rw [if_pos rfl]
    | ⟨2, _⟩ => show 0 = if (1 : Nat) = 1 then 0 else q.val; rw [if_pos rfl]
  · refine extractStridedSlice_apply ![0, 0, 0] v slices_S2x1024x1024_o0_0_0_S2x1x1 (ix3 r 0 0) (ix3 r 0 0) (fun a => ?_)
    match a with
    | ⟨0, _⟩ => show r.val = 0 + r.val; omega
    | ⟨1, _⟩ => show 0 = 0 + 0; rfl
    | ⟨2, _⟩ => show 0 = 0 + 0; rfl

/-- The body's stored value at (r, p, q): 1 if the block's entry there differs from its plane's corner, else 0. -/
theorem pay_apply (v : Vec Ideal S2x1024x1024 .f32) (r : Fin 2) (p q : Fin 1024) :
    k0_pay1 (F := Ideal) v (ix3 r p q) = differs (v (ix3 r p q)) (v (ix3 r 0 0)) := by
  unfold k0_pay1
  show FloatOps.sitofp (F := Ideal) .f32
      ((FloatOps.cmpf (F := Ideal) (φ := .f32) .one
          (shapeCast S2x1024x1024 v shapeCasts_S2x1024x1024_S2x1024x1024 (ix3 r p q))
          (broadcastTo S2x1024x1024
            (extractStridedSlice S2x1x1 ![0, 0, 0] (shapeCast S2x1024x1024 v shapeCasts_S2x1024x1024_S2x1024x1024)
              slices_S2x1024x1024_o0_0_0_S2x1x1)
            broadcasts_S2x1x1_S2x1024x1024 (ix3 r p q))).setWidth 32) = _
  rw [shapeCast_self, corner_spread]
  exact widen_convert _ _

end Cert.KernelIdeal.BlockCorner

end
-- ==== Proof.LibLeadingPair.lean ====
/-
  Merging the two leading axes of a rank-4 array. An array of shape [a, b, c, d] and the array of shape [n, c, d] with
  n = a·b that a row-major reshape makes of it hold the same elements in the same order: plane p·b + q of the second is
  plane (p, q) of the first, and inside a plane nothing moves. Both directions of the reshape are read here at an index,
  for any element type: [a, b, c, d] → [n, c, d] at a merged index, and [n, c, d] → [a, b, c, d] at any index.
-/
import Idealize.ShloMosaic.Lib.Pipeline.Value
import Idealize.ShloMosaic.Lib.ValueIdx

noncomputable section

namespace Cert.LibLeadingPair

open Idealize.ShloMosaic Idealize.ShloMosaic.ValueIdx

variable {α : Type} {a b c d n : Nat}

/-- Plane (p, q) with p < a and q < b has a number below a·b. -/
theorem plane_lt {p q : Nat} (hp : p < a) (hq : q < b) : p * b + q < a * b :=
  calc p * b + q < p * b + b := by omega
    _ = (p + 1) * b := by rw [Nat.add_mul, Nat.one_mul]
    _ ≤ a * b := Nat.mul_le_mul_right b hp

/-- An index of [n, c, d] whose plane is p·b + q and an index (p, q, ·, ·) of [a, b, c, d] with the same two trailing
    coordinates sit at the same row-major position: ((p·b + q)·c + y)·d + z on both sides. -/
theorem rowMajor_merged (i : (⟨4, ![a, b, c, d]⟩ : Shape).Idx) (k : (⟨3, ![n, c, d]⟩ : Shape).Idx)
    (h0 : (k 0).val = (i 0).val * b + (i 1).val) (h1 : (k 1).val = (i 2).val) (h2 : (k 2).val = (i 3).val) :
    ((⟨3, ![n, c, d]⟩ : Shape).rowMajor k).val = ((⟨4, ![a, b, c, d]⟩ : Shape).rowMajor i).val := by
  rw [Shape.rowMajor_val_three, Shape.rowMajor_val_four, h0, h1, h2]
  rfl

/-- The reshape [a, b, c, d] → [n, c, d] read at an index whose plane is p·b + q: the operand at (p, q, ·, ·). -/
theorem shapeCast_merge_apply (x : (⟨4, ![a, b, c, d]⟩ : Shape).Idx → α)
    (h : (⟨4, ![a, b, c, d]⟩ : Shape).ShapeCasts ⟨3, ![n, c, d]⟩)
    (k : (⟨3, ![n, c, d]⟩ : Shape).Idx) (i : (⟨4, ![a, b, c, d]⟩ : Shape).Idx)
    (h0 : (k 0).val = (i 0).val * b + (i 1).val) (h1 : (k 1).val = (i 2).val) (h2 : (k 2).val = (i 3).val) :
    shapeCast ⟨3, ![n, c, d]⟩ x h k = x i :=
  shapeCast_apply x h k i (rowMajor_merged i k h0 h1 h2).symm

/-- The reshape [n, c, d] → [a, b, c, d] read at (p, q, ·, ·): the operand at the index whose plane is p·b + q. -/
theorem shapeCast_split_apply (z : (⟨3, ![n, c, d]⟩ : Shape).Idx → α)
    (h : (⟨3, ![n, c, d]⟩ : Shape).ShapeCasts ⟨4, ![a, b, c, d]⟩)
    (i : (⟨4, ![a, b, c, d]⟩ : Shape).Idx) (k : (⟨3, ![n, c, d]⟩ : Shape).Idx)
    (h0 : (k 0).val = (i 0).val * b + (i 1).val) (h1 : (k 1).val = (i 2).val) (h2 : (k 2).val = (i 3).val) :
    shapeCast ⟨4, ![a, b, c, d]⟩ z h i = z k :=
  shapeCast_apply z h i k (rowMajor_merged i k h0 h1 h2)

/-- The index of [n, c, d] that holds what (p, q, y, z) of [a, b, c, d] holds: (p·b + q, y, z). -/
def merged (hn : n = a * b) (i : (⟨4, ![a, b, c, d]⟩ : Shape).Idx) : (⟨3, ![n, c, d]⟩ : Shape).Idx :=
  ix3 ⟨(i 0).val * b + (i 1).val, hn ▸ plane_lt (i 0).isLt (i 1).isLt⟩ (i 2) (i 3)

/-- [a, b, c, d] → [n, c, d] at the merged index. -/
theorem shapeCast_merge_at (hn : n = a * b) (x : (⟨4, ![a, b, c, d]⟩ : Shape).Idx → α)
    (h : (⟨4, ![a, b, c, d]⟩ : Shape).ShapeCasts ⟨3, ![n, c, d]⟩) (i : (⟨4, ![a, b, c, d]⟩ : Shape).Idx) :
    shapeCast ⟨3, ![n, c, d]⟩ x h (merged hn i) = x i :=
  shapeCast_merge_apply x h (merged hn i) i rfl rfl rfl

/-- [n, c, d] → [a, b, c, d] at any index. -/
theorem shapeCast_split_at (hn : n = a * b) (z : (⟨3, ![n, c, d]⟩ : Shape).Idx → α)
    (h : (⟨3, ![n, c, d]⟩ : Shape).ShapeCasts ⟨4, ![a, b, c, d]⟩) (i : (⟨4, ![a, b, c, d]⟩ : Shape).Idx) :
    shapeCast ⟨4, ![a, b, c, d]⟩ z h i = z (merged hn i) :=
  shapeCast_split_apply z h i (merged hn i) rfl rfl rfl

end Cert.LibLeadingPair

end
-- ==== Proof.CornerFlags.lean ====
/-
  The function both programs compute. The argument is a batch of 16 × 3 planes (images) of 1024 × 1024 numbers; the
  result marks, in every plane, the entries that differ from the plane's corner, entry (0, 0):

      cornerFlags x (s, c, p, q) = 1 if x (s, c, p, q) ≠ x (s, c, 0, 0), else 0.

  One program computes it directly. The other first lays the 16 × 3 planes out as 48 planes (plane 3s + c is plane
  (s, c)), marks every plane of that array against its own corner (`planeFlags`), and lays the result out as 16 × 3
  planes again. Neither reshape moves anything inside a plane, and a plane's corner stays its corner, so the detour
  changes nothing (`flags_through_planes`). No arithmetic is involved: the law holds for all extended reals,
  the infinities included.
-/
import proofs.«152996_j57947698757992_2_alg».proof.Proof.Indicator
import proofs.«152996_j57947698757992_2_alg».proof.Proof.LibLeadingPair
import Idealize.ShloMosaic.Lib.Pipeline.Value
import Idealize.ShloMosaic.Lib.ValueIdx

noncomputable section

namespace Cert.CornerFlags

open Idealize.ShloMosaic Idealize.ShloMosaic.ValueIdx
open Cert.Indicator Cert.LibLeadingPair

/-- 16 × 3 planes of 1024 × 1024. -/
abbrev Images : Shape := ⟨4, ![16, 3, 1024, 1024]⟩
/-- The same planes counted through: 48 planes of 1024 × 1024. -/
abbrev Planes : Shape := ⟨3, ![48, 1024, 1024]⟩

/-- Every entry against the corner of its own plane, planes indexed by a pair. -/
def cornerFlags (x : Images.Idx → EReal) : Images.Idx → EReal :=
  fun i => differs (x i) (x (ix4 (n0 := 16) (n1 := 3) (n2 := 1024) (n3 := 1024) (i 0) (i 1) 0 0))

/-- Every entry against the corner of its own plane, planes indexed by one number. -/
def planeFlags (y : Planes.Idx → EReal) : Planes.Idx → EReal :=
  fun k => differs (y k) (y (ix3 (n0 := 48) (n1 := 1024) (n2 := 1024) (k 0) 0 0))

/-- Lay the planes out in one row, mark every plane against its corner, lay the result out in pairs again: the
    marks of the original array. -/
theorem flags_through_planes (x : Images.Idx → EReal) (h1 : Images.ShapeCasts Planes) (h2 : Planes.ShapeCasts Images) :
    shapeCast Images (planeFlags (shapeCast Planes x h1)) h2 = cornerFlags x := by
  funext i
  refine (shapeCast_split_at (n := 48) (a := 16) (b := 3) (c := 1024) (d := 1024) rfl _ h2 i).trans ?_
  show differs (shapeCast Planes x h1 (merged rfl i))
      (shapeCast Planes x h1 (ix3 (n0 := 48) (n1 := 1024) (n2 := 1024) ((merged (n := 48) (a := 16) (b := 3) rfl i) 0) 0 0))
    = differs (x i) (x (ix4 (n0 := 16) (n1 := 3) (n2 := 1024) (n3 := 1024) (i 0) (i 1) 0 0))
  rw [shapeCast_merge_at (n := 48) (a := 16) (b := 3) (c := 1024) (d := 1024) rfl x h1 i,
    shapeCast_merge_apply x h1 (ix3 (n0 := 48) (n1 := 1024) (n2 := 1024) ((merged (n := 48) (a := 16) (b := 3) rfl i) 0) 0 0)
      (ix4 (n0 := 16) (n1 := 3) (n2 := 1024) (n3 := 1024) (i 0) (i 1) 0 0) rfl rfl rfl]

end Cert.CornerFlags

end
-- ==== Proof.RegionArray.lean ====
/-
  The array the region leaves. The region works on 48 planes of 1024 × 1024 numbers, two planes per grid point: point t
  reads planes 2t and 2t + 1 and writes the same two planes of its output. A plane's corner, entry (0, 0), lies in the
  block that holds the plane, so what a point writes is a block of ONE function of the whole input array, the
  specification's `planeFlags`:

      planeFlags y (n, p, q) = 1 if y (n, p, q) ≠ y (n, 0, 0), else 0.

  The 24 blocks tile the 48 planes, so after the run the output array is `planeFlags` of the input array.
-/
import proofs.«152996_j57947698757992_2_alg».proof.Proof.Gen.KernelIdeal.Frame
import proofs.«152996_j57947698757992_2_alg».proof.Proof.BlockCorner
import proofs.«152996_j57947698757992_2_alg».proof.Proof.CornerFlags
import Idealize.ShloMosaic.Lib.Pipeline.Value
import Idealize.ShloMosaic.Lib.ValueIdx

noncomputable section

namespace Cert.KernelIdeal.RegionArray

open Cert.KernelIdeal Cert.KernelIdeal.Gen Idealize.ShloMosaic Idealize.ShloMosaic.TcCoe Idealize.SL.Sem
open Idealize.ShloMosaic.ValueIdx
open Idealize.ShloMosaic.Pipeline (Dat)
open Cert.Indicator Cert.CornerFlags Cert.KernelIdeal.BlockCorner

variable (m : (ℓ : Loc nD τ sig) → Buf (Elt Ideal) ℓ)

theorem offsets_zero : (![0, 0, 0] : Fin 3 → Nat) = fun _ => 0 := funext fun a => by fin_cases a <;> rfl

/-- The two windows move together, and only along the planes: at every point both block indices are (b, 0, 0) with
    the same b. -/
theorem block_index : ∀ t : Fin cfg0.N, win0_0.index t (0 : Fin 3) = win0_1.index t (0 : Fin 3)
    ∧ win0_0.index t (1 : Fin 3) = 0 ∧ win0_0.index t (2 : Fin 3) = 0
    ∧ win0_1.index t (1 : Fin 3) = 0 ∧ win0_1.index t (2 : Fin 3) = 0 :=
  (by decide +kernel : ∀ t : Fin grid0.N, _)

/-- Every pair of planes is some point's block. -/
theorem block_onto : ∀ b : Fin 24, ∃ t : Fin cfg0.N, win0_1.index t = ![b.val, 0, 0] :=
  (by decide +kernel : ∀ b : Fin 24, ∃ t : Fin grid0.N, win0_1.index t = ![b.val, 0, 0])

/-- What point `t` writes back is block `t` of `planeFlags` of the input array as the region finds it. -/
theorem flushed_eq (c : Dev nD) (t : Fin cfg0.N) :
    (dats m 0 c).flushed 1 t = ((cfg0.win 1).blk t).view.read (Elt Ideal) (planeFlags (V m c main_v0)) := by
  show (cfg0.win 1).cut (grid0.coords t) ((dats m 0 c).after 1 t) = _
  rw [after0_1]
  unfold out0_1
  rw [View.canon_unit_zero offsets_zero]
  simp only [View.ld_unit_zero (S := S2x1024x1024) offsets_zero]
  obtain ⟨e0, e1, e2, e3, e4⟩ := block_index t
  funext j
  obtain ⟨r, p, q, rfl⟩ : ∃ (r : Fin 2) (p q : Fin 1024), j = ix3 r p q := ⟨j 0, j 1, j 2, eq_ix3 j⟩
  show k0_pay1 (F := Ideal) (iblk m c 0 t) (ix3 r p q)
      = planeFlags (V m c main_v0) (((cfg0.win 1).blk t).view.emb (ix3 r p q))
  refine (pay_apply (iblk m c 0 t) r p q).trans ?_
  unfold planeFlags
  have ha : iblk m c 0 t (ix3 r p q) = V m c main_v0 (((cfg0.win 1).blk t).view.emb (ix3 r p q)) := by
    show V m c main_v0 (((cfg0.win 0).blk t).view.emb (ix3 r p q)) = _
    refine congrArg (V m c main_v0) (funext fun a => Fin.ext ?_)
    match a with
    | ⟨0, _⟩ => show win0_0.index t (0 : Fin 3) * 2 + 1 * r.val = win0_1.index t (0 : Fin 3) * 2 + 1 * r.val; omega
    | ⟨1, _⟩ => show win0_0.index t (1 : Fin 3) * 1024 + 1 * p.val = win0_1.index t (1 : Fin 3) * 1024 + 1 * p.val; omega
    | ⟨2, _⟩ => show win0_0.index t (2 : Fin 3) * 1024 + 1 * q.val = win0_1.index t (2 : Fin 3) * 1024 + 1 * q.val; omega
  have hb : iblk m c 0 t (ix3 r 0 0)
      = V m c main_v0 (ix3 (n0 := 48) (n1 := 1024) (n2 := 1024) ((((cfg0.win 1).blk t).view.emb (ix3 r p q)) 0) 0 0) := by
    show V m c main_v0 (((cfg0.win 0).blk t).view.emb (ix3 r 0 0)) = _
    refine congrArg (V m c main_v0) (funext fun a => Fin.ext ?_)
    match a with
    | ⟨0, _⟩ => show win0_0.index t (0 : Fin 3) * 2 + 1 * r.val = win0_1.index t (0 : Fin 3) * 2 + 1 * r.val; omega
    | ⟨1, _⟩ => show win0_0.index t (1 : Fin 3) * 1024 + 1 * 0 = 0; omega
    | ⟨2, _⟩ => show win0_0.index t (2 : Fin 3) * 1024 + 1 * 0 = 0; omega
  rw [ha, hb]

/-- An index of the output array is in point `t`'s block iff each coordinate is in the block's range on its axis. -/
theorem mem_blk (t : Fin cfg0.N) (i : S48x1024x1024.Idx) :
    i ∈ ((cfg0.win 1).blk t).view.set ↔ ∀ a : Fin 3, win0_1.index t a * S2x1024x1024.size a ≤ (i a).val
      ∧ (i a).val < win0_1.index t a * S2x1024x1024.size a + S2x1024x1024.size a := by
  show i ∈ ((View.whole main_v1).slice (win0_1.rect t)).set ↔ _
  rw [View.set_slice_whole, Rect.mem_set_unit]
  exact Iff.rfl

/-- Plane n is written by the point whose block is the pair of planes n / 2. -/
theorem covered (i : S48x1024x1024.Idx) :
    ∃ t : Fin cfg0.N, (cfg0.win 1).flush t = true ∧ i ∈ ((cfg0.win 1).blk t).view.set := by
  have hi0 : (i 0).val < 48 := (i 0).isLt
  have hi1 : (i 1).val < 1024 := (i 1).isLt
  have hi2 : (i 2).val < 1024 := (i 2).isLt
  obtain ⟨t, ht⟩ := block_onto ⟨(i 0).val / 2, by omega⟩
  have q0 : win0_1.index t (0 : Fin 3) = (i 0).val / 2 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 2 ≤ (i 0).val ∧ (i 0).val < win0_1.index t (0 : Fin 3) * 2 + 2; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1024 ≤ (i 2).val ∧ (i 2).val < win0_1.index t (2 : Fin 3) * 1024 + 1024; omega

/-- The region's output array after the run: every entry against its own plane's corner. -/
theorem region_array (c : Dev nD) : (dats m 0 c).arrAt 1 cfg0.N = planeFlags (V m c main_v0) :=
  (dats m 0 c).arrAt_eq_of_cover 1 (planeFlags (V m c main_v0)) (fun t _ => flushed_eq m c t) covered

end Cert.KernelIdeal.RegionArray

end
-- ==== Proof.KernelValue.lean ====
/-
  The kernel program's result as a function of its argument. Around the region stand two reshapes: before it, the
  16 × 3 planes of the argument are laid out as the 48 planes the region reads; after it, the 48 planes the region
  wrote are laid out as 16 × 3 planes again, and that is the program's result. The region's output is every plane of its
  input marked against the plane's own corner (`region_array`), so by the specification's law
  (`flags_through_planes`) the result is `cornerFlags` of the argument.
-/
import proofs.«152996_j57947698757992_2_alg».proof.Proof.Gen.KernelIdeal.Frame
import proofs.«152996_j57947698757992_2_alg».proof.Proof.RegionArray
import proofs.«152996_j57947698757992_2_alg».proof.Proof.CornerFlags
import Idealize.ShloMosaic.Lib.Pipeline.Value
import Idealize.ShloMosaic.Lib.StableHlo.Run

noncomputable section

namespace Cert.KernelIdeal.KernelValue

open Cert.KernelIdeal Cert.KernelIdeal.Gen Idealize.ShloMosaic Idealize.ShloMosaic.TcCoe Idealize.SL.Sem
open Idealize.ShloMosaic.StableHlo
open Cert.CornerFlags Cert.KernelIdeal.RegionArray

variable (m : (ℓ : Loc nD τ sig) → Buf (Elt Ideal) ℓ) (ρ : Dev nD → PrngReg)

/-- The array the region reads is the argument laid out as 48 planes. -/
theorem entry_planes (c : Dev nD) :
    (V m c main_v0 : S48x1024x1024.Idx → EReal)
      = shapeCast S48x1024x1024 (m ((c : Thread nD τ).loc main_arg0)) shapeCasts_S16x3x1024x1024_S48x1024x1024 := by
  show StableHlo.after hostOps0 (fun b => m (c, b)) (Proc.devRef .tc main_v0) = _
  after_results
  rfl

/-- The program's result is the region's output array, every plane marked against its corner, laid out as 16 × 3
    planes. -/
theorem result_planes (c : Dev nD) :
    (Pipeline.afterTail₀ cfgs (dats m) 0 (V0 m) [hostOps1] c main_v2 : S16x3x1024x1024.Idx → EReal)
      = shapeCast S16x3x1024x1024 (planeFlags (V m c main_v0)) shapeCasts_S48x1024x1024_S16x3x1024x1024 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = planeFlags (V m c main_v0) :=
    (Pipeline.withArrays_arr spec0 launch0.win.arr_inj c _ _ 1).trans (region_array m c)
  rw [hw]
  rfl

/-- The program's result is `cornerFlags` of its argument. -/
theorem result_flags (c : Dev nD) :
    (Pipeline.afterTail₀ cfgs (dats m) 0 (V0 m) [hostOps1] c main_v2 : S16x3x1024x1024.Idx → EReal)
      = cornerFlags (m ((c : Thread nD τ).loc main_arg0)) := by
  rw [result_planes, entry_planes]
  exact flags_through_planes _ _ _

/-- Every weakly fair execution of the kernel program terminates, with the result at `cornerFlags` of the argument
    and the argument unchanged. -/
theorem run : θ_run defs (onTc (τ := τ) (main (F := Ideal))) ⟨m, fun _ => 0, ρ⟩ fun r => ∀ c : Dev nD,
      r.2.mem ((c : Thread nD τ).loc main_v2) = cornerFlags (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result_flags m c),
       ((h c).2 main_arg0 (Pipeline.mem_restRefs_of main_arg0 (by decide) (by decide))).trans (W_main_arg0 m (dats m) c)⟩)
    (run_main m ρ)

end Cert.KernelIdeal.KernelValue

end
-- ==== Proof.ReferenceFlags.lean ====
/-
  The reference program's result as a function of its argument. It slices the corners of the 16 × 3 planes out as a
  [16, 3, 1, 1] array, spreads each corner over its plane, compares the argument with that (unordered "not equal"),
  and selects 1.0 where the bit is set and 0.0 where it is not. Read at an index (s, c, p, q), on the extended reals,
  that is 1 if the entry differs from entry (s, c, 0, 0) and 0 otherwise: `cornerFlags`.
-/
import proofs.«152996_j57947698757992_2_alg».proof.Proof.Gen.ReferenceIdeal.Read
import proofs.«152996_j57947698757992_2_alg».proof.Proof.CornerFlags
import Idealize.ShloMosaic.Lib.ValueIdx

noncomputable section

namespace Cert.ReferenceIdeal.RefValue

open Cert.ReferenceIdeal Cert.ReferenceIdeal.Gen Idealize.ShloMosaic Idealize.ShloMosaic.ValueIdx
open Cert.Indicator Cert.CornerFlags

/-- The corner slice spread back over the planes reads, at (s, c, p, q), the argument at (s, c, 0, 0). -/
theorem corner_index (i : S16x3x1024x1024.Idx) :
    Read.idx_main_v0 (Read.idx_main_v1 i) = ix4 (n0 := 16) (n1 := 3) (n2 := 1024) (n3 := 1024) (i 0) (i 1) 0 0 :=
  funext fun a => Fin.ext (by
    match a with
    | ⟨0, _⟩ => rfl
    | ⟨1, _⟩ => rfl
    | ⟨2, _⟩ => rfl
    | ⟨3, _⟩ => rfl)

/-- The reference's result is `cornerFlags` of its argument. -/
theorem reference_flags (x : (⟨S16x3x1024x1024, .f32⟩ : BufTy).Contents (Elt Ideal)) :
    Read.val_main_v3 (F := Ideal) x = cornerFlags x := by
  funext i
  rw [Read.val_main_v3_apply, Read.val_main_v2_apply, Read.val_main_v1_apply, Read.val_main_v0_apply,
    Read.val_main_call0_v0_apply, Read.val_main_call0_v1_apply, Read.val_main_cst_apply, Read.val_main_cst_0_apply,
    corner_index]
  exact select_words _ _

end Cert.ReferenceIdeal.RefValue

end
-- ==== Proof.lean ====
/-
  Both programs mark, in each of the 16 × 3 planes of 1024 × 1024 numbers, the entries that differ from the plane's
  corner entry (0, 0): the result is 1 there and 0 elsewhere (`cornerFlags`, Proof/CornerFlags.lean).

  The kernel program lays the planes out as 48 planes, lets each grid point handle two whole planes — a plane's corner
  lies in the block that holds the plane, so a point needs nothing from outside its block — and lays the 48 result planes
  out as 16 × 3 again; its comparison is the ordered "not equal", its 0/1 an integer widened from the comparison bit and
  converted to a float. The reference compares the argument with its corners spread over the planes by the unordered
  "not equal" and selects between the floats 1.0 and 0.0. On the extended reals no pair is unordered, so both comparisons
  decide "differs" (Proof/Indicator.lean), and a reshape that merges the two leading axes moves nothing inside a plane
  (Proof/LibLeadingPair.lean), so the two results are one function of the argument, for every extended-real input: the
  equation uses no arithmetic law and never needs the inputs finite.

  The idealization rewrote no operation, so there is nothing to preserve beyond the program text itself.
-/
import proofs.«152996_j57947698757992_2_alg».proof.Defs
import proofs.«152996_j57947698757992_2_alg».proof.Proof.Gen.Kernel
import proofs.«152996_j57947698757992_2_alg».proof.Proof.Gen.Kernel.Skeleton
import proofs.«152996_j57947698757992_2_alg».proof.Proof.Gen.Kernel.Launch
import proofs.«152996_j57947698757992_2_alg».proof.Proof.Gen.Kernel.Points
import proofs.«152996_j57947698757992_2_alg».proof.Proof.Gen.Kernel.Frame
import proofs.«152996_j57947698757992_2_alg».proof.Proof.Gen.KernelIdeal
import proofs.«152996_j57947698757992_2_alg».proof.Proof.Gen.KernelIdeal.Skeleton
import proofs.«152996_j57947698757992_2_alg».proof.Proof.Gen.KernelIdeal.Launch
import proofs.«152996_j57947698757992_2_alg».proof.Proof.Gen.KernelIdeal.Points
import proofs.«152996_j57947698757992_2_alg».proof.Proof.Gen.KernelIdeal.Frame
import proofs.«152996_j57947698757992_2_alg».proof.Proof.Gen.ReferenceIdeal
import proofs.«152996_j57947698757992_2_alg».proof.Proof.Gen.ReferenceIdeal.Run
import proofs.«152996_j57947698757992_2_alg».proof.Proof.Gen.ReferenceIdeal.Read
import proofs.«152996_j57947698757992_2_alg».proof.Proof.Gen.Pre_finite_inputs
import proofs.«152996_j57947698757992_2_alg».proof.Proof.KernelValue
import proofs.«152996_j57947698757992_2_alg».proof.Proof.ReferenceFlags
import Idealize.ShloMosaic.Adequacy
import Idealize.ShloMosaic.Init

noncomputable section

namespace Cert.Proof

open Idealize.ShloMosaic Idealize.SL.Sem Cert.Kernel

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with `cornerFlags` of the argument. -/
theorem algebraic : Cert.algebraic_KernelIdeal_ReferenceIdeal := by
  intro m ρ m' ρ' _ hagree
  refine ⟨fun c => Cert.CornerFlags.cornerFlags (m ((c.tc : Thread Cert.KernelIdeal.nD Cert.KernelIdeal.τ).loc Cert.KernelIdeal.main_arg0)),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v3_eq, Cert.ReferenceIdeal.RefValue.reference_flags, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
